-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x64 : Shape := ⟨2, ![4096, 64]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S4096x4096 .f32) (main_arg1 : FVec F S4096x64 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S4096x4096 : Shape := ⟨2, ![4096, 4096]⟩
abbrev S4096x64 : Shape := ⟨2, ![4096, 64]⟩
abbrev S4096x512 : Shape := ⟨2, ![4096, 512]⟩
abbrev S512x64 : Shape := ⟨2, ![512, 64]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S4096x64, .f32⟩
  | .local _ .vmem, ⟨0, _⟩ => ⟨S4096x512, .f32⟩
  | .local _ .vmem, ⟨1, _⟩ => ⟨S4096x512, .f32⟩
  | .local _ .vmem, ⟨2, _⟩ => ⟨S512x64, .f32⟩
  | .local _ .vmem, ⟨3, _⟩ => ⟨S512x64, .f32⟩
  | .local _ .vmem, ⟨4, _⟩ => ⟨S4096x64, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg0 : BitVec 32 := BitVec.ofNat 32 (i 0).val
  let c0_i32_4 : BitVec 32 := 0#32
  let v6 : BitVec 1 := Scalar.cmpi .ne arg0 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S4096x512_S4096x512_0_0 : ∀ a, (![0, 0] : Fin 2 → Nat) a + S4096x512.size a ≤ S4096x512.size a
  h_S4096x512 : 0 < S4096x512.numel
  inb_S512x64_S512x64_0_0 : ∀ a, (![0, 0] : Fin 2 → Nat) a + S512x64.size a ≤ S512x64.size a
  h_S512x64 : 0 < S512x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  dot_S4096x512_S512x64_S4096x64_1_0_0_1_n_n_wf : DotDims.WF S4096x512 S512x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x4096.size a
  hwx0_0 : ∀ i : grid0.Coords, EltTy.bits .f32 = 32 ∨ (Rect.block (s := S4096x4096) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S4096x64.size a
  hwx0_1 : ∀ i : grid0.Coords, EltTy.bits .f32 = 32 ∨ (Rect.block (s := S4096x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x64 : Shape := ⟨2, ![4096, 64]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S4096x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.BlockStepBits.lean ====
/-
  One column block's step of the blocked product, at the word-level reading of the kernel.

  The kernel sweeps the contraction axis of `adj · embeds` (4096 × 4096 by 4096 × 64) in eight column blocks of 512.
  At each grid point its body is handed the block `x0 = adj[:, 512k : 512k + 512]` and the block
  `x1 = embeds[512k : 512k + 512, :]` in its two input buffers, and the one resident 4096 × 64 output buffer.
  At the first block it stores the product `x0 · x1` over the whole output buffer; at every later block it loads the
  whole buffer, adds `x0 · x1` to it and stores the whole buffer back. The two theorems below are these two runs
  of the body, with what the output buffer ends at NAMED: the body's own arithmetic (`k0_pay1`, `k0_pay2`) of the
  blocks it was handed. Both are stated for any float instance `F`.
-/
import proofs.«159712_g5944234738328_cont_9to1c4b_699_12_alg».proof.Proof.Gen.Kernel.Frame
import proofs.«159712_g5944234738328_cont_9to1c4b_699_12_alg».proof.Proof.Gen.Kernel.Skeleton
import Idealize.ShloMosaic.Lib.Pipeline.Value

set_option maxRecDepth 16384

noncomputable section

namespace Cert.Kernel.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The zero offsets of a whole-buffer access of a rank-two buffer, however they are spelt. -/
theorem zero_off : (![0, 0] : Fin 2 → ℕ) = fun _ => 0 := by
  funext a; match a with | ⟨0, _⟩ => rfl | ⟨1, _⟩ => rfl

set_option maxHeartbeats 1000000 in
/-- THE FIRST COLUMN BLOCK. Where the first conditional is taken and the second is not, the body, handed the
    adjacency block `x0` and the embedding block `x1` in its two input buffers and anything in its output buffer,
    runs to its end, leaves the inputs as they were and the output buffer at the product `x0 · x1`
    (`k0_pay1 x0 x1`): the one store covers the whole buffer, so nothing of what was there before is left. -/
theorem body_first (c : Dev nD) (i : grid0.Coords) (arg1 : Memref sig .tc .vmem S4096x512 .f32) (harg1 : arg1.IsWhole)
    (arg2 : Memref sig .tc .vmem S512x64 .f32) (harg2 : arg2.IsWhole) (arg3 : Memref sig .tc .vmem S4096x64 .f32) (harg3 : arg3.IsWhole)
    (hc0 : k0_cond1 i = 1#1) (hc1 : ¬k0_cond2 i = 1#1)
    (x0 : Vec F S4096x512 .f32) (x1 : Vec F S512x64 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ owns (c : Thread nD τ) arg3 fullShare (k0_pay1 x0 x1)) -∗ K ⟨⟩))
          ⊢ wp frame (wpE (defs₀ (F := F)) Variants.none c none) E (cc0__matmul_kernel i arg1 harg1 arg2 harg2 arg3 harg3) K := by
    intro E K
    simp only [cc0__matmul_kernel_eq_skeleton]; unfold cc0__matmul_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero zero_off Facts₀.inb_S4096x64_S4096x64_0_0 y⟩),
      View.canon_unit_zero zero_off]
    simp only [View.readAt_eq_ld, harg1.read_unread, harg2.read_unread, View.ld_unit_zero (S := S4096x512) zero_off,
      View.ld_unit_zero (S := S512x64) zero_off]

set_option maxHeartbeats 1000000 in
/-- A LATER COLUMN BLOCK. Where the first conditional is not taken and the second is, the body, handed the two
    input blocks and the output buffer at `xo`, leaves the output buffer at `xo + x0 · x1` (`k0_pay2 x0 x1 xo`): it
    loads the whole buffer, adds the product, and stores the whole buffer back. -/
theorem body_later (c : Dev nD) (i : grid0.Coords) (arg1 : Memref sig .tc .vmem S4096x512 .f32) (harg1 : arg1.IsWhole)
    (arg2 : Memref sig .tc .vmem S512x64 .f32) (harg2 : arg2.IsWhole) (arg3 : Memref sig .tc .vmem S4096x64 .f32) (harg3 : arg3.IsWhole)
    (hc0 : ¬k0_cond1 i = 1#1) (hc1 : k0_cond2 i = 1#1)
    (x0 : Vec F S4096x512 .f32) (x1 : Vec F S512x64 .f32) (xo : Vec F S4096x64 .f32) :
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1 ∗ owns (c : Thread nD τ) arg3 fullShare (k0_pay2 x0 x1 xo)) -∗ K ⟨⟩))
          ⊢ wp frame (wpE (defs₀ (F := F)) Variants.none c none) E (cc0__matmul_kernel i arg1 harg1 arg2 harg2 arg3 harg3) K := by
    intro E K
    simp only [cc0__matmul_kernel_eq_skeleton]; unfold cc0__matmul_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero zero_off Facts₀.inb_S4096x64_S4096x64_0_0 y⟩),
      View.canon_unit_zero zero_off]
    simp only [View.readAt_eq_ld, harg1.read_unread, harg2.read_unread, harg3.read_unread, View.ld_unit_zero (S := S4096x512) zero_off,
      View.ld_unit_zero (S := S512x64) zero_off, View.ld_unit_zero (S := S4096x64) zero_off]

end Cert.Kernel.Sweep

end
-- ==== Proof.BlockSweepBits.lean ====
/-
  The sweep over the eight column blocks, at the word-level reading of the kernel: what the resident output buffer holds after each grid point
  (the running sum `partialSum`), the pipeline's proof data over it, the body's obligation at every point from the two
  runs of one block's step, and from these the program's run — it terminates without a fault, the output array ends at
  the last running sum written back whole, and the two argument arrays end unchanged.
-/
import proofs.«159712_g5944234738328_cont_9to1c4b_699_12_alg».proof.Proof.BlockStepBits

set_option maxRecDepth 16384

noncomputable section

namespace Cert.Kernel.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which block a grid point is -/

/-- The body's first conditional (`program_id == 0`) holds at the first grid point only, -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- and its second (`program_id != 0`) at every other one. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- So the output buffer is stored into at every grid point: one of the two conditionals always holds. Stated of every
    coordinate vector, -/
theorem out_live : ∀ i : grid0.Coords, cfg0.idle 2 i = false := by decide +kernel

/-- and of every point, for each of the three buffers. -/
theorem live_in0 : ∀ t : Fin cfg0.N, cfg0.idle 0 (grid0.coords t) = false := by decide +kernel
theorem live_in1 : ∀ t : Fin cfg0.N, cfg0.idle 1 (grid0.coords t) = false := by decide +kernel
theorem live_out : ∀ t : Fin cfg0.N, cfg0.idle 2 (grid0.coords t) = false := fun t => out_live _

/-- The buffers the body is called with at point `t`, as the pipeline passes them, each a whole buffer. -/
abbrev bufAdj (t : Fin cfg0.N) : Memref sig .tc .vmem S4096x512 .f32 := win0_0.stage (cfg0.slots t 0)
abbrev wholeAdj (t : Fin cfg0.N) : (bufAdj t).IsWhole := Facts₀.hstage0_0 ((cfg0.slots t 0).cast Facts₀.nbuf0_0)
abbrev bufEmb (t : Fin cfg0.N) : Memref sig .tc .vmem S512x64 .f32 := win0_1.stage (cfg0.slots t 1)
abbrev wholeEmb (t : Fin cfg0.N) : (bufEmb t).IsWhole := Facts₀.hstage0_1 ((cfg0.slots t 1).cast Facts₀.nbuf0_1)
abbrev bufOut (t : Fin cfg0.N) : Memref sig .tc .vmem S4096x64 .f32 := win0_2.stage (cfg0.slots t 2)
abbrev wholeOut (t : Fin cfg0.N) : (bufOut t).IsWhole := Facts₀.hstage0_2 ((cfg0.slots t 2).cast Facts₀.nbuf0_2)

/-! ## The running sum -/

/-- What the resident output buffer holds after the body at grid point `n`: the product of the first pair of blocks at
    `n = 0`, and at `n + 1` what it held after point `n` plus the product of the pair of blocks of point `n + 1` — in the
    body's own arithmetic. The buffer is not written back between two points (only after the last), so each point finds
    what the point before left. -/
def partialSum (c : Dev nD) : (n : ℕ) → n < cfg0.N → Vec F S4096x64 .f32
  | 0, hn => k0_pay1 (iblk m c 0 ⟨0, hn⟩) (iblk m c 1 ⟨0, hn⟩)
  | n + 1, hn => k0_pay2 (iblk m c 0 ⟨n + 1, hn⟩) (iblk m c 1 ⟨n + 1, hn⟩) (partialSum c n (Nat.lt_of_succ_lt hn))

theorem partialSum_first (c : Dev nD) (t : Fin cfg0.N) (h : t.val = 0) :
    partialSum m c t.val t.isLt = k0_pay1 (iblk m c 0 t) (iblk m c 1 t) := by
  obtain ⟨n, hn⟩ := t
  cases n with
  | zero => rfl
  | succ n => exact absurd h (Nat.succ_ne_zero n)

theorem partialSum_later (c : Dev nD) (t : Fin cfg0.N) (h : t.val ≠ 0) :
    partialSum m c t.val t.isLt
      = k0_pay2 (iblk m c 0 t) (iblk m c 1 t) (partialSum m c (t.val - 1) (Nat.lt_of_le_of_lt (Nat.sub_le _ _) t.isLt)) := by
  obtain ⟨n, hn⟩ := t
  cases n with
  | zero => exact absurd rfl h
  | succ n => rfl

/-! ## The pipeline's proof data -/

/-- On core `c`: the arrays as the region finds them; after the body at point `t` each input buffer at its block and the
    output buffer at the running sum; the region's invariant the plain one (nothing of the body's own to carry);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => partialSum m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_adj (c : Dev nD) (t : Fin cfg0.N) : (dats m 0 c).after 0 t = iblk m c 0 t := by dsimp only [dats]
theorem after_emb (c : Dev nD) (t : Fin cfg0.N) : (dats m 0 c).after 1 t = iblk m c 1 t := by dsimp only [dats]
theorem after_out (c : Dev nD) (t : Fin cfg0.N) : (dats m 0 c).after 2 t = partialSum m c t.val t.isLt := by dsimp only [dats]

/-- Each input buffer holds its block when the body is called, -/
theorem before_adj (c : Dev nD) (t : Fin cfg0.N) (d) : (dats m 0 c).before 0 t d = iblk m c 0 t :=
  before0_0_of m (dats m 0 c) (A_eq m c 0) (after_adj m c) t d
theorem before_emb (c : Dev nD) (t : Fin cfg0.N) (d) : (dats m 0 c).before 1 t d = iblk m c 1 t :=
  before0_1_of m (dats m 0 c) (A_eq m c 1) (after_emb m c) t d

/-- and at a later point the output buffer holds the running sum of the point before: the buffer is written back after
    the last point only, and the body stores into it at every point. -/
theorem before_out (c : Dev nD) (t : Fin cfg0.N) (h : t.val ≠ 0) (d) :
    (dats m 0 c).before 2 t d = partialSum m c (t.val - 1) (Nat.lt_of_le_of_lt (Nat.sub_le _ _) t.isLt) := by
  have hN : t.val < 8 := lt_of_lt_of_eq t.isLt (show cfg0.N = 8 from N_0)
  rw [Dat.before_out_kept _ 2 rfl t h (Bool.eq_false_iff.mpr fun hf => by have := (flush0_2 _).mp hf; dsimp only at this; omega)
    out_live (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (bufAdj t) fullShare ((dats m 0 c).before 0 t d))
    ∗ (∃ d, owns (c : Thread nD τ) (bufEmb t) fullShare ((dats m 0 c).before 1 t d))
    ∗ (∃ d, owns (c : Thread nD τ) (bufOut t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the input buffers hold their blocks; the point is the first or a later one; at the first the
    output buffer, whatever it holds, is left at the first product, and at a later one it holds the running sum of the
    point before and is left at that plus this point's product — the running sum at this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_adj, before_emb]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (bufAdj t) fullShare ((dats m 0 c).after 0 t) from by
      unfold Dat.leavesExact; rw [live_in0 t], after_adj]
  rw [show (dats m 0 c).leavesExact 1 t = owns (c : Thread nD τ) (bufEmb t) fullShare ((dats m 0 c).after 1 t) from by
      unfold Dat.leavesExact; rw [live_in1 t], after_emb]
  rw [show (dats m 0 c).leavesExact 2 t = owns (c : Thread nD τ) (bufOut t) fullShare ((dats m 0 c).after 2 t) from by
      unfold Dat.leavesExact; rw [live_out t], after_out]
  by_cases h0 : t.val = 0
  · rw [partialSum_first m c t h0]
    iintro ⟨HΦ, Ho, ⟨%d0, H0⟩, ⟨%d1, H1⟩, ⟨%d2, H2⟩⟩
    iapply ((body_first c (grid0.coords t) _ _ _ _ _ _ ((first_iff t).mpr h0) (fun h => (later_iff t).mp h h0)
      (iblk m c 0 t) (iblk m c 1 t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [partialSum_later m c t h0]
    simp only [before_out m c t h0]
    iintro ⟨HΦ, Ho, ⟨%d0, H0⟩, ⟨%d1, H1⟩, ⟨%d2, H2⟩⟩
    iapply ((body_later c (grid0.coords t) _ _ _ _ _ _ (fun h => h0 ((first_iff t).mp h)) ((later_iff t).mpr h0)
      (iblk m c 0 t) (iblk m c 1 t) _) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault, every
    array of the pipeline ending at what the write-backs of the proof data make of it — the output array at the last
    running sum — and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program terminates without a fault and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Sweep

end
-- ==== Proof.BlockStepIdeal.lean ====
/-
  One column block's step of the blocked product, at the exact (extended-real) reading of the kernel.

  The kernel sweeps the contraction axis of `adj · embeds` (4096 × 4096 by 4096 × 64) in eight column blocks of 512.
  At each grid point its body is handed the block `x0 = adj[:, 512k : 512k + 512]` and the block
  `x1 = embeds[512k : 512k + 512, :]` in its two input buffers, and the one resident 4096 × 64 output buffer.
  At the first block it stores the product `x0 · x1` over the whole output buffer; at every later block it loads the
  whole buffer, adds `x0 · x1` to it and stores the whole buffer back. The two theorems below are these two runs
  of the body, with what the output buffer ends at NAMED: the body's own arithmetic (`k0_pay1`, `k0_pay2`) of the
  blocks it was handed. Both are stated for any float instance `F`.
-/
import proofs.«159712_g5944234738328_cont_9to1c4b_699_12_alg».proof.Proof.Gen.KernelIdeal.Frame
import proofs.«159712_g5944234738328_cont_9to1c4b_699_12_alg».proof.Proof.Gen.KernelIdeal.Skeleton
import Idealize.ShloMosaic.Lib.Pipeline.Value

set_option maxRecDepth 16384

noncomputable section

namespace Cert.KernelIdeal.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The zero offsets of a whole-buffer access of a rank-two buffer, however they are spelt. -/
theorem zero_off : (![0, 0] : Fin 2 → ℕ) = fun _ => 0 := by
  funext a; match a with | ⟨0, _⟩ => rfl | ⟨1, _⟩ => rfl

set_option maxHeartbeats 1000000 in
/-- THE FIRST COLUMN BLOCK. Where the first conditional is taken and the second is not, the body, handed the
    adjacency block `x0` and the embedding block `x1` in its two input buffers and anything in its output buffer,
    runs to its end, leaves the inputs as they were and the output buffer at the product `x0 · x1`
    (`k0_pay1 x0 x1`): the one store covers the whole buffer, so nothing of what was there before is left. -/
theorem body_first (c : Dev nD) (i : grid0.Coords) (arg1 : Memref sig .tc .vmem S4096x512 .f32) (harg1 : arg1.IsWhole)
    (arg2 : Memref sig .tc .vmem S512x64 .f32) (harg2 : arg2.IsWhole) (arg3 : Memref sig .tc .vmem S4096x64 .f32) (harg3 : arg3.IsWhole)
    (hc0 : k0_cond1 i = 1#1) (hc1 : ¬k0_cond2 i = 1#1)
    (x0 : Vec F S4096x512 .f32) (x1 : Vec F S512x64 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ owns (c : Thread nD τ) arg3 fullShare (k0_pay1 x0 x1)) -∗ K ⟨⟩))
          ⊢ wp frame (wpE (defs₀ (F := F)) Variants.none c none) E (cc0__matmul_kernel i arg1 harg1 arg2 harg2 arg3 harg3) K := by
    intro E K
    simp only [cc0__matmul_kernel_eq_skeleton]; unfold cc0__matmul_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero zero_off Facts₀.inb_S4096x64_S4096x64_0_0 y⟩),
      View.canon_unit_zero zero_off]
    simp only [View.readAt_eq_ld, harg1.read_unread, harg2.read_unread, View.ld_unit_zero (S := S4096x512) zero_off,
      View.ld_unit_zero (S := S512x64) zero_off]

set_option maxHeartbeats 1000000 in
/-- A LATER COLUMN BLOCK. Where the first conditional is not taken and the second is, the body, handed the two
    input blocks and the output buffer at `xo`, leaves the output buffer at `xo + x0 · x1` (`k0_pay2 x0 x1 xo`): it
    loads the whole buffer, adds the product, and stores the whole buffer back. -/
theorem body_later (c : Dev nD) (i : grid0.Coords) (arg1 : Memref sig .tc .vmem S4096x512 .f32) (harg1 : arg1.IsWhole)
    (arg2 : Memref sig .tc .vmem S512x64 .f32) (harg2 : arg2.IsWhole) (arg3 : Memref sig .tc .vmem S4096x64 .f32) (harg3 : arg3.IsWhole)
    (hc0 : ¬k0_cond1 i = 1#1) (hc1 : k0_cond2 i = 1#1)
    (x0 : Vec F S4096x512 .f32) (x1 : Vec F S512x64 .f32) (xo : Vec F S4096x64 .f32) :
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1 ∗ owns (c : Thread nD τ) arg3 fullShare (k0_pay2 x0 x1 xo)) -∗ K ⟨⟩))
          ⊢ wp frame (wpE (defs₀ (F := F)) Variants.none c none) E (cc0__matmul_kernel i arg1 harg1 arg2 harg2 arg3 harg3) K := by
    intro E K
    simp only [cc0__matmul_kernel_eq_skeleton]; unfold cc0__matmul_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero zero_off Facts₀.inb_S4096x64_S4096x64_0_0 y⟩),
      View.canon_unit_zero zero_off]
    simp only [View.readAt_eq_ld, harg1.read_unread, harg2.read_unread, harg3.read_unread, View.ld_unit_zero (S := S4096x512) zero_off,
      View.ld_unit_zero (S := S512x64) zero_off, View.ld_unit_zero (S := S4096x64) zero_off]

end Cert.KernelIdeal.Sweep

end
-- ==== Proof.BlockSweepIdeal.lean ====
/-
  The sweep over the eight column blocks, at the exact (extended-real) reading of the kernel: what the resident output buffer holds after each grid point
  (the running sum `partialSum`), the pipeline's proof data over it, the body's obligation at every point from the two
  runs of one block's step, and from these the program's run — it terminates without a fault, the output array ends at
  the last running sum written back whole, and the two argument arrays end unchanged.
-/
import proofs.«159712_g5944234738328_cont_9to1c4b_699_12_alg».proof.Proof.BlockStepIdeal

set_option maxRecDepth 16384

noncomputable section

namespace Cert.KernelIdeal.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which block a grid point is -/

/-- The body's first conditional (`program_id == 0`) holds at the first grid point only, -/
theorem first_iff : ∀ t : Fin cfg0.N, k0_cond1 (grid0.coords t) = 1#1 ↔ t.val = 0 :=
  (by decide +kernel : ∀ t : Fin grid0.N, k0_cond1 (grid0.coords t) = 1#1 ↔ t.val = 0)

/-- and its second (`program_id != 0`) at every other one. -/
theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

/-- So the output buffer is stored into at every grid point: one of the two conditionals always holds. Stated of every
    coordinate vector, -/
theorem out_live : ∀ i : grid0.Coords, cfg0.idle 2 i = false := by decide +kernel

/-- and of every point, for each of the three buffers. -/
theorem live_in0 : ∀ t : Fin cfg0.N, cfg0.idle 0 (grid0.coords t) = false := by decide +kernel
theorem live_in1 : ∀ t : Fin cfg0.N, cfg0.idle 1 (grid0.coords t) = false := by decide +kernel
theorem live_out : ∀ t : Fin cfg0.N, cfg0.idle 2 (grid0.coords t) = false := fun t => out_live _

/-- The buffers the body is called with at point `t`, as the pipeline passes them, each a whole buffer. -/
abbrev bufAdj (t : Fin cfg0.N) : Memref sig .tc .vmem S4096x512 .f32 := win0_0.stage (cfg0.slots t 0)
abbrev wholeAdj (t : Fin cfg0.N) : (bufAdj t).IsWhole := Facts₀.hstage0_0 ((cfg0.slots t 0).cast Facts₀.nbuf0_0)
abbrev bufEmb (t : Fin cfg0.N) : Memref sig .tc .vmem S512x64 .f32 := win0_1.stage (cfg0.slots t 1)
abbrev wholeEmb (t : Fin cfg0.N) : (bufEmb t).IsWhole := Facts₀.hstage0_1 ((cfg0.slots t 1).cast Facts₀.nbuf0_1)
abbrev bufOut (t : Fin cfg0.N) : Memref sig .tc .vmem S4096x64 .f32 := win0_2.stage (cfg0.slots t 2)
abbrev wholeOut (t : Fin cfg0.N) : (bufOut t).IsWhole := Facts₀.hstage0_2 ((cfg0.slots t 2).cast Facts₀.nbuf0_2)

/-! ## The running sum -/

/-- What the resident output buffer holds after the body at grid point `n`: the product of the first pair of blocks at
    `n = 0`, and at `n + 1` what it held after point `n` plus the product of the pair of blocks of point `n + 1` — in the
    body's own arithmetic. The buffer is not written back between two points (only after the last), so each point finds
    what the point before left. -/
def partialSum (c : Dev nD) : (n : ℕ) → n < cfg0.N → Vec F S4096x64 .f32
  | 0, hn => k0_pay1 (iblk m c 0 ⟨0, hn⟩) (iblk m c 1 ⟨0, hn⟩)
  | n + 1, hn => k0_pay2 (iblk m c 0 ⟨n + 1, hn⟩) (iblk m c 1 ⟨n + 1, hn⟩) (partialSum c n (Nat.lt_of_succ_lt hn))

theorem partialSum_first (c : Dev nD) (t : Fin cfg0.N) (h : t.val = 0) :
    partialSum m c t.val t.isLt = k0_pay1 (iblk m c 0 t) (iblk m c 1 t) := by
  obtain ⟨n, hn⟩ := t
  cases n with
  | zero => rfl
  | succ n => exact absurd h (Nat.succ_ne_zero n)

theorem partialSum_later (c : Dev nD) (t : Fin cfg0.N) (h : t.val ≠ 0) :
    partialSum m c t.val t.isLt
      = k0_pay2 (iblk m c 0 t) (iblk m c 1 t) (partialSum m c (t.val - 1) (Nat.lt_of_le_of_lt (Nat.sub_le _ _) t.isLt)) := by
  obtain ⟨n, hn⟩ := t
  cases n with
  | zero => exact absurd rfl h
  | succ n => rfl

/-! ## The pipeline's proof data -/

/-- On core `c`: the arrays as the region finds them; after the body at point `t` each input buffer at its block and the
    output buffer at the running sum; the region's invariant the plain one (nothing of the body's own to carry);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => partialSum m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_adj (c : Dev nD) (t : Fin cfg0.N) : (dats m 0 c).after 0 t = iblk m c 0 t := by dsimp only [dats]
theorem after_emb (c : Dev nD) (t : Fin cfg0.N) : (dats m 0 c).after 1 t = iblk m c 1 t := by dsimp only [dats]
theorem after_out (c : Dev nD) (t : Fin cfg0.N) : (dats m 0 c).after 2 t = partialSum m c t.val t.isLt := by dsimp only [dats]

/-- Each input buffer holds its block when the body is called, -/
theorem before_adj (c : Dev nD) (t : Fin cfg0.N) (d) : (dats m 0 c).before 0 t d = iblk m c 0 t :=
  before0_0_of m (dats m 0 c) (A_eq m c 0) (after_adj m c) t d
theorem before_emb (c : Dev nD) (t : Fin cfg0.N) (d) : (dats m 0 c).before 1 t d = iblk m c 1 t :=
  before0_1_of m (dats m 0 c) (A_eq m c 1) (after_emb m c) t d

/-- and at a later point the output buffer holds the running sum of the point before: the buffer is written back after
    the last point only, and the body stores into it at every point. -/
theorem before_out (c : Dev nD) (t : Fin cfg0.N) (h : t.val ≠ 0) (d) :
    (dats m 0 c).before 2 t d = partialSum m c (t.val - 1) (Nat.lt_of_le_of_lt (Nat.sub_le _ _) t.isLt) := by
  have hN : t.val < 8 := lt_of_lt_of_eq t.isLt (show cfg0.N = 8 from N_0)
  rw [Dat.before_out_kept _ 2 rfl t h (Bool.eq_false_iff.mpr fun hf => by have := (flush0_2 _).mp hf; dsimp only at this; omega)
    out_live (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (bufAdj t) fullShare ((dats m 0 c).before 0 t d))
    ∗ (∃ d, owns (c : Thread nD τ) (bufEmb t) fullShare ((dats m 0 c).before 1 t d))
    ∗ (∃ d, owns (c : Thread nD τ) (bufOut t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the input buffers hold their blocks; the point is the first or a later one; at the first the
    output buffer, whatever it holds, is left at the first product, and at a later one it holds the running sum of the
    point before and is left at that plus this point's product — the running sum at this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_adj, before_emb]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (bufAdj t) fullShare ((dats m 0 c).after 0 t) from by
      unfold Dat.leavesExact; rw [live_in0 t], after_adj]
  rw [show (dats m 0 c).leavesExact 1 t = owns (c : Thread nD τ) (bufEmb t) fullShare ((dats m 0 c).after 1 t) from by
      unfold Dat.leavesExact; rw [live_in1 t], after_emb]
  rw [show (dats m 0 c).leavesExact 2 t = owns (c : Thread nD τ) (bufOut t) fullShare ((dats m 0 c).after 2 t) from by
      unfold Dat.leavesExact; rw [live_out t], after_out]
  by_cases h0 : t.val = 0
  · rw [partialSum_first m c t h0]
    iintro ⟨HΦ, Ho, ⟨%d0, H0⟩, ⟨%d1, H1⟩, ⟨%d2, H2⟩⟩
    iapply ((body_first c (grid0.coords t) _ _ _ _ _ _ ((first_iff t).mpr h0) (fun h => (later_iff t).mp h h0)
      (iblk m c 0 t) (iblk m c 1 t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [partialSum_later m c t h0]
    simp only [before_out m c t h0]
    iintro ⟨HΦ, Ho, ⟨%d0, H0⟩, ⟨%d1, H1⟩, ⟨%d2, H2⟩⟩
    iapply ((body_later c (grid0.coords t) _ _ _ _ _ _ (fun h => h0 ((first_iff t).mp h)) ((later_iff t).mpr h0)
      (iblk m c 0 t) (iblk m c 1 t) _) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault, every
    array of the pipeline ending at what the write-backs of the proof data make of it — the output array at the last
    running sum — and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program terminates without a fault and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Sweep

end
-- ==== Proof.SweepResult.lean ====
/-
  The result array after the run. The output window's one block is the whole 4096 × 64 array (its block index is (0, 0)
  at every point) and it is written back once, after the last grid point; what is written is what the resident buffer
  holds then, the last running sum. So the result array ends at the last running sum, and the program's run can be read
  as values: the result array there, the two argument arrays unchanged. Stated for any float instance.
-/
import proofs.«159712_g5944234738328_cont_9to1c4b_699_12_alg».proof.Proof.BlockSweepIdeal
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.SweepResult

open Cert.KernelIdeal Cert.KernelIdeal.Gen Cert.KernelIdeal.Sweep

variable {F : FTy → Type} [FloatOps F]
variable (m : (ℓ : Loc nD τ sig) → Buf (Elt F) ℓ) (ρ : Dev nD → PrngReg)

/-- The last of the eight grid points is a point of the grid. -/
theorem last_lt : 7 < cfg0.N := by rw [show cfg0.N = 8 from N_0]; decide

/-- The last running sum, as contents of the result array (whose one block is the whole array). -/
abbrev result (c : Dev nD) : Buf (Elt F) ((c : Thread nD τ).loc main_v0) := partialSum m c 7 last_lt

/-- The one write-back, after the last point, writes the last running sum: the block at index (0, 0), of the array's own
    extents, read through zero offsets is the array. -/
theorem flushed_eq (c : Dev nD) (t : Fin cfg0.N) (hf : (cfg0.win 2).flush t = true) :
    (dats m 0 c).flushed 2 t = ((cfg0.win 2).blk t).view.read (Elt F) (result m c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  rw [after_out]
  have hz' : (fun a => win0_2.index t0_7 a * main_v0.ty.shape.size a) = fun _ => 0 := funext fun a => by fin_cases a <;> decide
  exact (Memref.read_access_unit_zero (Elt F) main_v0 hz' (fun a => by rw [congrFun hz' a]; simp) (result m c)).symm

/-- That block covers the array, so the result array ends at the last running sum. -/
theorem final_out (c : Dev nD) : (dats m 0 c).arrAt 2 cfg0.N = result m c :=
  (dats m 0 c).arrAt_eq_of_cover 2 (result m c) (flushed_eq m c) fun i =>
    ⟨t0_7, (flush0_2 t0_7).mpr rfl, by
      show i ∈ ((View.whole main_v0).slice (win0_2.rect t0_7)).set
      rw [View.set_slice_whole, Rect.mem_set_unit]
      intro a
      have h0 : (i 0 : Nat) < 4096 := (i 0).isLt
      have h1 : (i 1 : Nat) < 64 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 4096 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 64 from by decide +kernel]; omega⟩

/-- The run, read as values: the result array at the last running sum, the two argument arrays unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final_out m c),
      ((h c).1 0).trans ((dats m 0 c).arrAt_in 0 rfl _), ((h c).1 1).trans ((dats m 0 c).arrAt_in 1 rfl _)⟩)
    (run_main m ρ)

end Cert.KernelIdeal.SweepResult

end
-- ==== Proof.ProductSpec.lean ====
/-
  The matrix product `adj · embeds` (4096 × 4096 by 4096 × 64) over the extended reals as ONE function of the two
  arrays, entry by entry, and the one law the blocked computation rests on: the contraction axis has 4096 = 8 · 512
  positions, and a sum over all of them is the sum, over the eight column blocks, of each block's 512 terms. Only
  associativity and commutativity of addition are used (the extended reals are an additive commutative monoid), so the
  law holds at infinite entries too and nothing here asks the entries to be finite.
-/
import Idealize.ShloMosaic.PureOps.Ideal
import Idealize.ShloMosaic.Lib.ValueIdx

noncomputable section

open scoped BigOperators

namespace Cert.BlockedProduct

open Idealize.ShloMosaic Idealize.ShloMosaic.ValueIdx

/-- The shapes of the adjacency matrix, and of the embeddings and the product. -/
abbrev SAdj : Shape := ⟨2, ![4096, 4096]⟩
abbrev SEmb : Shape := ⟨2, ![4096, 64]⟩

/-- The position on the contraction axis of entry `j` of column block `k`: blocks are 512 wide and laid side by side. -/
def pos (k : ℕ) (hk : k < 8) (j : Fin 512) : Fin 4096 := ⟨512 * k + j.val, by have := j.isLt; omega⟩

/-- The product, entry by entry: entry `(p, q)` is the sum over the whole contraction axis of `adj[p, l] · embeds[l, q]`. -/
def product (A : FVec Ideal SAdj .f32) (B : FVec Ideal SEmb .f32) : FVec Ideal SEmb .f32 :=
  fun i => ∑ l : Fin 4096, A (ix2 (i 0) l) * B (ix2 l (i 1))

/-- What column block `k` contributes to entry `(p, q)`: the sum over the block's 512 positions. (Total in `k`: zero from
    the ninth block on, of which there is none.) -/
def blockTerm (A : FVec Ideal SAdj .f32) (B : FVec Ideal SEmb .f32) (p : Fin 4096) (q : Fin 64) (k : ℕ) : EReal :=
  if hk : k < 8 then ∑ j : Fin 512, A (ix2 p (pos k hk j)) * B (ix2 (pos k hk j) q) else 0

/-- A sum over the 4096 positions is the sum over the eight blocks of the sums over each block's 512 positions: the
    positions are the pairs (block, place in the block), `l = 512 k + j`. -/
theorem sum_by_blocks {M : Type*} [AddCommMonoid M] (g : Fin 4096 → M) :
    ∑ l : Fin 4096, g l = ∑ k : Fin 8, ∑ j : Fin 512, g (pos k.val k.isLt j) := by
  rw [← Equiv.sum_comp (finProdFinEquiv (m := 8) (n := 512)) g, Fintype.sum_prod_type]
  refine Finset.sum_congr rfl fun k _ => Finset.sum_congr rfl fun j _ => congrArg g (Fin.ext ?_)
  show j.val + 512 * k.val = 512 * k.val + j.val
  omega

/-- THE LAW: an entry of the product is the sum of the eight blocks' contributions to it. -/
theorem product_eq_sum_blocks (A : FVec Ideal SAdj .f32) (B : FVec Ideal SEmb .f32) (p : Fin 4096) (q : Fin 64) :
    product A B (ix2 p q) = ∑ k ∈ Finset.range 8, blockTerm A B p q k := by
  rw [← Fin.sum_univ_eq_sum_range (fun k => blockTerm A B p q k) 8]
  show ∑ l : Fin 4096, A (ix2 p l) * B (ix2 l q) = _
  rw [sum_by_blocks (fun l => A (ix2 p l) * B (ix2 l q))]
  exact Finset.sum_congr rfl fun k _ => by unfold blockTerm; rw [dif_pos k.isLt]

end Cert.BlockedProduct

end
-- ==== Proof.SweepProduct.lean ====
/-
  The kernel's result array is the product, over the extended reals.

  One block's product, read at an index, is the sum over the block's 512 positions (the matrix unit's product into a zero
  accumulator is the plain sum); a later block's step adds that to what the buffer held. The adjacency window's block at
  grid point `n` is columns `512 n … 512 n + 511` of `adj`, the embedding window's block rows `512 n … 512 n + 511` of
  `embeds`. So, by induction on the grid point, the running sum after point `n` is, entry by entry, the sum of the
  contributions of column blocks `0 … n`; after the last point that is the whole product (the specification's law), and
  the one write-back, after the last point, writes the whole 4096 × 64 buffer over the whole result array.
-/
import proofs.«159712_g5944234738328_cont_9to1c4b_699_12_alg».proof.Proof.BlockSweepIdeal
import proofs.«159712_g5944234738328_cont_9to1c4b_699_12_alg».proof.Proof.ProductSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.SweepValue

open Cert.KernelIdeal Cert.KernelIdeal.Gen Cert.KernelIdeal.Sweep Cert.BlockedProduct
open Idealize.ShloMosaic.ValueIdx

/-! ## One block's product at an index -/

/-- The dimension numbers of the body's matrix product: axis 1 of the 4096 × 512 block against axis 0 of the 512 × 64 one. -/
abbrev blockDims : DotDims S4096x512 S512x64 S4096x64 := dot_S4096x512_S512x64_S4096x64_1_0_0_1_n_n

theorem lhs_row (i : S4096x64.Idx) (k : blockDims.contr.Idx) : (blockDims.lhsIdx i k 0).val = (i 0).val := by
  unfold DotDims.lhsIdx
  rw [dif_neg (show ¬(0 : Fin S4096x512.rank) ∈ blockDims.lhsBatch by decide),
    dif_pos (show (0 : Fin S4096x512.rank) ∈ blockDims.lhsNonContracting by decide)]
  rfl
theorem lhs_col (i : S4096x64.Idx) (k : blockDims.contr.Idx) : (blockDims.lhsIdx i k 1).val = (k ⟨0, by decide⟩).val :=
  blockDims.lhsIdx_val_of_single rfl i k
theorem rhs_row (i : S4096x64.Idx) (k : blockDims.contr.Idx) : (blockDims.rhsIdx i k 0).val = (k ⟨0, by decide⟩).val :=
  blockDims.rhsIdx_val_of_single rfl i k
theorem rhs_col (i : S4096x64.Idx) (k : blockDims.contr.Idx) : (blockDims.rhsIdx i k 1).val = (i 1).val := by
  unfold DotDims.rhsIdx
  rw [dif_neg (show ¬(1 : Fin S512x64.rank) ∈ blockDims.rhsBatch by decide),
    dif_pos (show (1 : Fin S512x64.rank) ∈ blockDims.rhsNonContracting by decide)]
  rfl

/-- The first step's value at `(p, q)`: the sum over the block's 512 positions of `x0[p, j] · x1[j, q]`. -/
theorem blockProduct_apply (x0 : FVec Ideal S4096x512 .f32) (x1 : FVec Ideal S512x64 .f32) (p : Fin 4096) (q : Fin 64) :
    k0_pay1 (F := Ideal) x0 x1 (ix2 p q) = ∑ j : Fin 512, x0 (ix2 p j) * x1 (ix2 j q) := by
  unfold k0_pay1
  refine (Ideal.matmul_constant_zero_apply blockDims none x0 x1 (ix2 p q)).trans ?_
  rw [← Equiv.sum_comp (contrEquiv1 blockDims 512 rfl rfl).symm]
  refine Finset.sum_congr rfl fun k _ => ?_
  have hk := contrEquiv1_symm_val blockDims 512 rfl rfl k
  have el : blockDims.lhsIdx (ix2 p q) ((contrEquiv1 blockDims 512 rfl rfl).symm k) = ix2 p k := funext fun a => Fin.ext (by
    match a with
    | ⟨0, _⟩ => exact lhs_row _ _
    | ⟨1, _⟩ => exact (lhs_col _ _).trans hk)
  have er : blockDims.rhsIdx (ix2 p q) ((contrEquiv1 blockDims 512 rfl rfl).symm k) = ix2 k q := funext fun a => Fin.ext (by
    match a with
    | ⟨0, _⟩ => exact (rhs_row _ _).trans hk
    | ⟨1, _⟩ => exact rhs_col _ _)
  rw [el, er]

/-- A later step's value at `(p, q)`: what the buffer held there plus the block's product there. -/
theorem blockAdd_apply (x0 : FVec Ideal S4096x512 .f32) (x1 : FVec Ideal S512x64 .f32) (xo : FVec Ideal S4096x64 .f32)
    (p : Fin 4096) (q : Fin 64) :
    k0_pay2 (F := Ideal) x0 x1 xo (ix2 p q) = xo (ix2 p q) + ∑ j : Fin 512, x0 (ix2 p j) * x1 (ix2 j q) := by
  unfold k0_pay2
  show shapeCast S4096x64 xo _ (ix2 p q) + k0_pay1 (F := Ideal) x0 x1 (ix2 p q) = _
  rw [shapeCast_self, blockProduct_apply]

variable (m : (ℓ : Loc nD τ sig) → Buf (Elt Ideal) ℓ) (ρ : Dev nD → PrngReg)

/-! ## The windows' blocks, read off the argument arrays -/

/-- The adjacency window's block index at point `t` is `(0, t)`, -/
theorem adj_index : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
/-- the embedding window's `(t, 0)`, -/
theorem emb_index : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The two argument arrays as the region finds them. -/
abbrev adj (c : Dev nD) : FVec Ideal SAdj .f32 := V m c main_arg0
abbrev emb (c : Dev nD) : FVec Ideal SEmb .f32 := V m c main_arg1

/-- The two blocks the body is handed at point `n`. -/
abbrev adjBlock (c : Dev nD) (n : ℕ) (hn : n < cfg0.N) : FVec Ideal S4096x512 .f32 := iblk m c 0 ⟨n, hn⟩
abbrev embBlock (c : Dev nD) (n : ℕ) (hn : n < cfg0.N) : FVec Ideal S512x64 .f32 := iblk m c 1 ⟨n, hn⟩

/-- Entry `(p, j)` of the adjacency block of point `n` is `adj[p, 512 n + j]`. -/
theorem adjBlock_apply (c : Dev nD) (n : ℕ) (hn : n < cfg0.N) (h8 : n < 8) (p : Fin 4096) (j : Fin 512) :
    adjBlock m c n hn (ix2 p j) = adj m c (ix2 p (pos n h8 j)) := by
  unfold adjBlock iblk
  rw [View.read_apply]
  show V m c main_arg0 _ = V m c main_arg0 _
  congr 1
  funext a
  apply Fin.ext
  match a with
  | ⟨0, _⟩ => show win0_0.index ⟨n, hn⟩ 0 * 4096 + 1 * p.val = p.val; rw [(adj_index ⟨n, hn⟩).1]; omega
  | ⟨1, _⟩ => show win0_0.index ⟨n, hn⟩ 1 * 512 + 1 * j.val = 512 * n + j.val; rw [(adj_index ⟨n, hn⟩).2]; show n * 512 + 1 * j.val = 512 * n + j.val; omega

/-- Entry `(j, q)` of the embedding block of point `n` is `embeds[512 n + j, q]`. -/
theorem embBlock_apply (c : Dev nD) (n : ℕ) (hn : n < cfg0.N) (h8 : n < 8) (j : Fin 512) (q : Fin 64) :
    embBlock m c n hn (ix2 j q) = emb m c (ix2 (pos n h8 j) q) := by
  unfold embBlock iblk
  rw [View.read_apply]
  show V m c main_arg1 _ = V m c main_arg1 _
  congr 1
  funext a
  apply Fin.ext
  match a with
  | ⟨0, _⟩ => show win0_1.index ⟨n, hn⟩ 0 * 512 + 1 * j.val = 512 * n + j.val; rw [(emb_index ⟨n, hn⟩).1]; show n * 512 + 1 * j.val = 512 * n + j.val; omega
  | ⟨1, _⟩ => show win0_1.index ⟨n, hn⟩ 1 * 64 + 1 * q.val = q.val; rw [(emb_index ⟨n, hn⟩).2]; omega

/-- The product of the blocks of point `n`, at `(p, q)`, is column block `n`'s contribution to entry `(p, q)`. -/
theorem blockTerm_eq (c : Dev nD) (n : ℕ) (hn : n < cfg0.N) (p : Fin 4096) (q : Fin 64) :
    ∑ j : Fin 512, adjBlock m c n hn (ix2 p j) * embBlock m c n hn (ix2 j q) = blockTerm (adj m c) (emb m c) p q n := by
  have h8 : n < 8 := lt_of_lt_of_eq hn N_0
  unfold blockTerm
  rw [dif_pos h8]
  exact Finset.sum_congr rfl fun j _ => by rw [adjBlock_apply m c n hn h8, embBlock_apply m c n hn h8]

/-! ## The running sum is the sum of the blocks' contributions so far -/

theorem partialSum_apply (c : Dev nD) : ∀ (n : ℕ) (hn : n < cfg0.N) (p : Fin 4096) (q : Fin 64),
    partialSum m c n hn (ix2 p q) = ∑ k ∈ Finset.range (n + 1), blockTerm (adj m c) (emb m c) p q k
  | 0, hn, p, q => by
    rw [Finset.sum_range_one, ← blockTerm_eq m c 0 hn p q]
    exact blockProduct_apply (adjBlock m c 0 hn) (embBlock m c 0 hn) p q
  | n + 1, hn, p, q => by
    rw [Finset.sum_range_succ, ← partialSum_apply c n (Nat.lt_of_succ_lt hn) p q, ← blockTerm_eq m c (n + 1) hn p q]
    exact blockAdd_apply (adjBlock m c (n + 1) hn) (embBlock m c (n + 1) hn) (partialSum m c n (Nat.lt_of_succ_lt hn)) p q

/-- So after the last point the buffer holds the product of the two argument arrays. -/
theorem last_is_product (c : Dev nD) (h7 : 7 < cfg0.N) : partialSum m c 7 h7 = product (adj m c) (emb m c) := by
  funext i
  obtain ⟨p, q, rfl⟩ : ∃ (p : Fin 4096) (q : Fin 64), i = ix2 p q := ⟨i 0, i 1, eq_ix2 i⟩
  rw [partialSum_apply m c 7 h7 p q, product_eq_sum_blocks]

end Cert.KernelIdeal.SweepValue

end
-- ==== Proof.RefProduct.lean ====
/-
  The reference's result is the product: its one `dot_general` contracts axis 1 of `adj` with axis 0 of `embeds`, so
  read at an index `(p, q)` over the extended reals it is the sum over the whole contraction axis of
  `adj[p, l] · embeds[l, q]` — the specification's `product`, term for term.
-/
import proofs.«159712_g5944234738328_cont_9to1c4b_699_12_alg».proof.Proof.Gen.ReferenceIdeal.Read
import proofs.«159712_g5944234738328_cont_9to1c4b_699_12_alg».proof.Proof.ProductSpec

noncomputable section

namespace Cert.ReferenceIdeal.RefValue

open Cert.ReferenceIdeal Cert.ReferenceIdeal.Gen Cert.BlockedProduct
open Idealize.ShloMosaic Idealize.ShloMosaic.ValueIdx

/-- The reference's value, as a function of the two argument arrays, is the product. -/
theorem ref_is_product (A : FVec Ideal S4096x4096 .f32) (B : FVec Ideal S4096x64 .f32) :
    Read.val_main_v0 (F := Ideal) A B = product A B := by
  funext i
  have el : ∀ k : Fin 4096, Read.lidx_main_v0 i k = ix2 (i 0) k := fun k =>
    funext fun a => Fin.ext (by match a with | ⟨0, _⟩ => rfl | ⟨1, _⟩ => rfl)
  have er : ∀ k : Fin 4096, Read.ridx_main_v0 i k = ix2 k (i 1) := fun k =>
    funext fun a => Fin.ext (by match a with | ⟨0, _⟩ => rfl | ⟨1, _⟩ => rfl)
  rw [Read.val_main_v0_apply]
  simp only [el, er]
  rfl

end Cert.ReferenceIdeal.RefValue

end
-- ==== Proof.lean ====
/-
  The certificate of the blocked product `adj · embeds` against the plain product.

  The kernel computes the 4096 × 64 product of a 4096 × 4096 matrix and a 4096 × 64 one by sweeping the contraction axis in
  eight column blocks of 512: one resident output buffer receives the first block's product and then, at each later
  block, itself plus that block's product, and is written back once at the end. The reference is one matrix product.

  * The three programs run to the end without a fault and leave their argument arrays unchanged: for the kernel, at the
    word level and read exactly, from the sweep's run (the body's two runs of one block's step, the running sum as proof
    data); for the reference from its run.
  * The exact reading of the kernel is the kernel's own text read over the extended reals: nothing was rewritten.
  * Over the extended reals the two results are equal: the kernel's result array ends at the last running sum, which entry
    by entry is the sum of the eight blocks' contributions; the reference's ends at the sum over the whole contraction
    axis; and the two sums are one, by associativity and commutativity of addition alone — so the entries need not be
    finite, and the precondition is not used.
-/
import proofs.«159712_g5944234738328_cont_9to1c4b_699_12_alg».proof.Defs
import proofs.«159712_g5944234738328_cont_9to1c4b_699_12_alg».proof.Proof.Gen.Kernel
import proofs.«159712_g5944234738328_cont_9to1c4b_699_12_alg».proof.Proof.Gen.KernelIdeal
import proofs.«159712_g5944234738328_cont_9to1c4b_699_12_alg».proof.Proof.Gen.ReferenceIdeal
import proofs.«159712_g5944234738328_cont_9to1c4b_699_12_alg».proof.Proof.Gen.Pre_finite_inputs
import proofs.«159712_g5944234738328_cont_9to1c4b_699_12_alg».proof.Proof.Gen.ReferenceIdeal.Run
import proofs.«159712_g5944234738328_cont_9to1c4b_699_12_alg».proof.Proof.BlockSweepBits
import proofs.«159712_g5944234738328_cont_9to1c4b_699_12_alg».proof.Proof.BlockSweepIdeal
import proofs.«159712_g5944234738328_cont_9to1c4b_699_12_alg».proof.Proof.SweepResult
import proofs.«159712_g5944234738328_cont_9to1c4b_699_12_alg».proof.Proof.SweepProduct
import proofs.«159712_g5944234738328_cont_9to1c4b_699_12_alg».proof.Proof.RefProduct

noncomputable section

namespace Cert.Proof

open Idealize.ShloMosaic Idealize.ShloMosaic.TcCoe Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Sweep.frame m ρ

/-- The kernel read exactly runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Sweep.frame m ρ

/-- The reference runs and keeps its arguments: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The exact reading rewrote nothing. -/
theorem preserves : Cert.preserves_Kernel_KernelIdeal := trivial

/-- Over the extended reals, from memories that agree on the two arguments, both programs end with the product of the
    arguments in their result array: the kernel as the last running sum of its sweep, the reference as its one
    contraction. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.SweepResult.result m c, Cert.KernelIdeal.SweepResult.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq, Cert.ReferenceIdeal.RefValue.ref_is_product]
  exact (Cert.KernelIdeal.SweepValue.last_is_product m c Cert.KernelIdeal.SweepResult.last_lt).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
